-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S100000x32 : Shape := ⟨2, ![100000, 32]⟩
abbrev S32x32 : Shape := ⟨2, ![32, 32]⟩
abbrev S32 : Shape := ⟨1, ![32]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : IVec S2000000 32) (main_arg1 : IVec S2000000 32) (main_arg2 : FVec F S2000000 .f32) (main_arg3 : FVec F S100000x32 .f32) (main_arg4 : FVec F S32x32 .f32) (main_arg5 : FVec F S32 .f32) (main_arg6 : FVec F S32x32 .f32) (main_arg7 : FVec F S32 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S2000000 : Shape := ⟨1, ![2000000]⟩
abbrev S100000x32 : Shape := ⟨2, ![100000, 32]⟩
abbrev S32x32 : Shape := ⟨2, ![32, 32]⟩
abbrev S32 : Shape := ⟨1, ![32]⟩
abbrev S2000000x1 : Shape := ⟨2, ![2000000, 1]⟩
abbrev S_ : Shape := ⟨0, ![]⟩
abbrev S2000000x32 : Shape := ⟨2, ![2000000, 32]⟩
abbrev S1x32 : Shape := ⟨2, ![1, 32]⟩
abbrev S5000x32 : Shape := ⟨2, ![5000, 32]⟩

abbrev nBuf : Space → Nat
  | .hbm => 44
  | .vmem => 12
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S2000000x1, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x32, .f32⟩
  | .hbm, ⟨18, _⟩ => ⟨S2000000x32, .f32⟩
  | .hbm, ⟨19, _⟩ => ⟨S2000000x32, .f32⟩
  | .hbm, ⟨20, _⟩ => ⟨S_, .f32⟩
  | .hbm, ⟨21, _⟩ => ⟨S100000x32, .f32⟩
  | .hbm, ⟨22, _⟩ => ⟨S2000000x1, .i32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S2000000x1, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x32, .f32⟩
  | .hbm, ⟨36, _⟩ => ⟨S2000000x32, .f32⟩
  | .hbm, ⟨37, _⟩ => ⟨S2000000x32, .f32⟩
  | .hbm, ⟨38, _⟩ => ⟨S_, .f32⟩
  | .hbm, ⟨39, _⟩ => ⟨S100000x32, .f32⟩
  | .hbm, ⟨40, _⟩ => ⟨S2000000x1, .i32⟩
  | .hbm, ⟨41, _⟩ => ⟨S100000x32, .f32⟩
  | .hbm, ⟨42, _⟩ => ⟨S1x32, .f32⟩
  | .hbm, ⟨43, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x32_0_1 : S2000000x1.BroadcastsInDim S2000000x32 (![0, 1] : Fin 2 → Fin S2000000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v12) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000 : Shape := ⟨1, ![2000000]⟩
abbrev S100000x32 : Shape := ⟨2, ![100000, 32]⟩
abbrev S32x32 : Shape := ⟨2, ![32, 32]⟩
abbrev S32 : Shape := ⟨1, ![32]⟩
abbrev S2000000x1 : Shape := ⟨2, ![2000000, 1]⟩
abbrev S_ : Shape := ⟨0, ![]⟩
abbrev S2000000x32 : Shape := ⟨2, ![2000000, 32]⟩
abbrev S1x32 : Shape := ⟨2, ![1, 32]⟩

abbrev nBuf : Space → Nat
  | .hbm => 56
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S2000000x1, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x32, .f32⟩
  | .hbm, ⟨18, _⟩ => ⟨S2000000x32, .f32⟩
  | .hbm, ⟨19, _⟩ => ⟨S2000000x32, .f32⟩
  | .hbm, ⟨20, _⟩ => ⟨S_, .f32⟩
  | .hbm, ⟨21, _⟩ => ⟨S100000x32, .f32⟩
  | .hbm, ⟨22, _⟩ => ⟨S2000000x1, .i32⟩
  | .hbm, ⟨23, _⟩ => ⟨S100000x32, .f32⟩
  | .hbm, ⟨24, _⟩ => ⟨S32x32, .f32⟩
  | .hbm, ⟨25, _⟩ => ⟨S100000x32, .f32⟩
  | .hbm, ⟨26, _⟩ => ⟨S1x32, .f32⟩
  | .hbm, ⟨27, _⟩ => ⟨S100000x32, .f32⟩
  | .hbm, ⟨28, _⟩ => ⟨S100000x32, .f32⟩
  | .hbm, ⟨29, _⟩ => ⟨S_, .f32⟩
  | .hbm, ⟨30, _⟩ => ⟨S100000x32, .f32⟩
  | .hbm, ⟨31, _⟩ => ⟨S100000x32, .f32⟩
  | .hbm, ⟨32, _⟩ => ⟨S2000000x1, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x32, .f32⟩
  | .hbm, ⟨42, _⟩ => ⟨S2000000x32, .f32⟩
  | .hbm, ⟨43, _⟩ => ⟨S2000000x32, .f32⟩
  | .hbm, ⟨44, _⟩ => ⟨S_, .f32⟩
  | .hbm, ⟨45, _⟩ => ⟨S100000x32, .f32⟩
  | .hbm, ⟨46, _⟩ => ⟨S2000000x1, .i32⟩
  | .hbm, ⟨47, _⟩ => ⟨S100000x32, .f32⟩
  | .hbm, ⟨48, _⟩ => ⟨S32x32, .f32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | .hbm, ⟨53, _⟩ => ⟨S_, .f32⟩
  | .hbm, ⟨54, _⟩ => ⟨S100000x32, .f32⟩
  | .hbm, ⟨55, _⟩ => ⟨S100000x32, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x32_0_1 : S2000000x1.BroadcastsInDim S2000000x32 (![0, 1] : Fin 2 → Fin S2000000x32.rank)
  bcast_S_S100000x32 : S_.BroadcastsInDim S100000x32 (![] : Fin 0 → Fin S100000x32.rank)
  transposes_S32x32_S32x32_1_0 : S32x32.Transposes [1, 0] S32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S100000x32_S32x32_S100000x32_1_0_0_1_n_n_wf : DotDims.WF S100000x32 S32x32 S100000x32 [1] [0] [0] [1] [] []

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«161906_j33131377721642_1_alg».proof.Proof.LibMatmul
import proofs.«161906_j33131377721642_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.LibRowBias.lean ====
/-
  A bias added along the rows of a matrix, read at an entry at any sizes over the extended reals: entry (p, q) of the
  result is a (p, q) + b q. The host spells it with two broadcasts (the vector to a [1, f] row, the row along every row of
  the [n, f] matrix) and one add; a vector unit spells the row with a cast [f] -> [1, f] and a broadcast [1, f] -> [n, f].
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

/-- a + b along the rows: entry (p, q) is a (p, q) + b q. -/
def rowBias {n f : Nat} (a : FVec Ideal ⟨2, ![n, f]⟩ .f32) (b : FVec Ideal ⟨1, ![f]⟩ .f32) : FVec Ideal ⟨2, ![n, f]⟩ .f32 :=
  fun i => a i + b (ix1 (n := f) (i 1))

theorem rowBias_apply {n f : Nat} (a : FVec Ideal ⟨2, ![n, f]⟩ .f32) (b : FVec Ideal ⟨1, ![f]⟩ .f32) (p : Fin n) (q : Fin f) :
    rowBias a b (ix2 p q) = a (ix2 p q) + b (ix1 q) := rfl

/-- The host's two broadcasts of a vector [f], to the row [1, f] and then along the rows of [n, f], read at (p, q): the
    vector's entry q. -/
theorem host_row_apply {α : Type} {n f : Nat} (b : (⟨1, ![f]⟩ : Shape).Idx → α)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) (p : Fin n) (q : Fin f) :
    broadcastInDim ⟨2, ![n, f]⟩ ![0, 1] h4 (broadcastInDim ⟨2, ![1, f]⟩ ![1] h3 b) (ix2 p q) = b (ix1 q) := by
  refine (broadcastInDim_apply _ h4 _ (ix2 p q) (ix2 (0 : Fin 1) q) fun a => ?_).trans
    (broadcastInDim_apply _ h3 b (ix2 (0 : Fin 1) q) (ix1 q) fun a => ?_)
  · match a with
    | ⟨0, _⟩ => rfl
    | ⟨1, _⟩ =>
      show q.val = if f = 1 then 0 else q.val
      split
      · have := q.isLt; omega
      · rfl
  · match a with
    | ⟨0, _⟩ =>
      show q.val = if f = 1 then 0 else q.val
      split
      · have := q.isLt; omega
      · rfl

/-- The host's spelling of the bias along the rows is `rowBias`. -/
theorem host_rowBias {n f : Nat} (a : FVec Ideal ⟨2, ![n, f]⟩ .f32) (b : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf a (broadcastInDim ⟨2, ![n, f]⟩ ![0, 1] h4 (broadcastInDim ⟨2, ![1, f]⟩ ![1] h3 b)) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [host_row_apply]

end Cert.LibRowBias

end
-- ==== Proof.LibDenseClamp.lean ====
/-
  One dense layer closed by a clamp below at zero, at any sizes over the extended reals: entry (p, q) of the result is
  max (Σ_k a (p, k) · wt (k, q) + b q, 0), where wt is the weight matrix as it is multiplied (already transposed if the
  layer transposes it) and b is added along the rows. Stated once with b a vector over the columns and once with b kept
  as a [1, N] row. The host spells the layer as a dot_general, two broadcasts of the bias, an add, and a maximum with a
  broadcast zero constant; a vector unit spells it as a matrix product into a zero accumulator of operands cast to bf16
  (a cast that is the identity here), a row cast and broadcast along the rows, an add, and a maximum with a splat zero.
  Both spellings are the layer. A block of consecutive rows of the layer is the layer of that block of rows of a.
-/
import Idealize.ShloMosaic.PureOps.Ideal.Laws
import Idealize.ShloMosaic.Lib.ValueIdx
import Idealize.ShloMosaic.Lib.ValueLayout
import Idealize.ShloMosaic.Lib.Pipeline.Value
import proofs.«161906_j33131377721642_1_alg».proof.Proof.LibMatmul
import proofs.«161906_j33131377721642_1_alg».proof.Proof.LibLayer
import proofs.«161906_j33131377721642_1_alg».proof.Proof.LibRowBias

noncomputable section

namespace Cert.LibDenseClamp

open Idealize.ShloMosaic Idealize.ShloMosaic.ValueIdx

/-- The layer with its bias a vector over the columns. -/
def dense {M K N : Nat} (a : FVec Ideal ⟨2, ![M, K]⟩ .f32) (wt : FVec Ideal ⟨2, ![K, N]⟩ .f32) (b : FVec Ideal ⟨1, ![N]⟩ .f32) :
    FVec Ideal ⟨2, ![M, N]⟩ .f32 :=
  fun i => max (∑ k : Fin K, a (ix2 (n0 := M) (i 0) k) * wt (ix2 (n1 := N) k (i 1)) + b (ix1 (n := N) (i 1)))
    (Ideal.ofBits .f32 0x00000000#32)

/-- The layer with its bias kept as a [1, N] row. -/
def denseRow {M K N : Nat} (a : FVec Ideal ⟨2, ![M, K]⟩ .f32) (wt : FVec Ideal ⟨2, ![K, N]⟩ .f32) (b : FVec Ideal ⟨2, ![1, N]⟩ .f32) :
    FVec Ideal ⟨2, ![M, N]⟩ .f32 :=
  fun i => max (∑ k : Fin K, a (ix2 (n0 := M) (i 0) k) * wt (ix2 (n1 := N) k (i 1)) + b (ix2 (n1 := N) (0 : Fin 1) (i 1)))
    (Ideal.ofBits .f32 0x00000000#32)

/-- The row form at a vector cast to a row is the vector form. -/
theorem denseRow_cast {M K N : Nat} (a : FVec Ideal ⟨2, ![M, K]⟩ .f32) (wt : FVec Ideal ⟨2, ![K, N]⟩ .f32) (b : FVec Ideal ⟨1, ![N]⟩ .f32)
    (h : (⟨1, ![N]⟩ : Shape).ShapeCasts ⟨2, ![1, N]⟩) : denseRow a wt (shapeCast ⟨2, ![1, N]⟩ b h) = dense a wt b := by
  funext i
  obtain ⟨p, q, rfl⟩ : ∃ (p : Fin M) (q : Fin N), i = ix2 p q := ⟨i 0, i 1, eq_ix2 i⟩
  show max (_ + shapeCast ⟨2, ![1, N]⟩ b h (ix2 (0 : Fin 1) q)) _ = max (_ + b (ix1 q)) _
  rw [shapeCast_a_1a_apply]

/-- The host's spelling of the layer is the layer. -/
theorem host_dense {M K N : Nat} (wf : DotDims.WF ⟨2, ![M, K]⟩ ⟨2, ![K, N]⟩ ⟨2, ![M, N]⟩ [1] [0] [0] [1] [] [])
    (prec : Option ContractPrecision) (a : FVec Ideal ⟨2, ![M, K]⟩ .f32) (wt : FVec Ideal ⟨2, ![K, N]⟩ .f32) (b : FVec Ideal ⟨1, ![N]⟩ .f32)
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (Cert.LibMatmul.plainDims M K N wf) prec a wt)
        (broadcastInDim ⟨2, ![M, N]⟩ ![0, 1] h4 (broadcastInDim ⟨2, ![1, N]⟩ ![1] h3 b)))
      (broadcastInDim ⟨2, ![M, N]⟩ ![] h0 (constant (F := Ideal) ⟨0, ![]⟩ .f32 0x00000000#32)) = dense a wt b := by
  rw [Cert.Gcn.dotGeneral_plain, Cert.LibRowBias.host_rowBias, Cert.Gcn.host_clamp]
  rfl

/-- The vector unit's spelling of the layer, on a block of rows x0, a weight matrix wt already in bf16 and a bias row
    x2, is the row form of the layer. -/
theorem unit_denseRow {M K N : Nat} (wf : DotDims.WF ⟨2, ![M, K]⟩ ⟨2, ![K, N]⟩ ⟨2, ![M, N]⟩ [1] [0] [0] [1] [] [])
    (prec : Option ContractPrecision) (x0 : FVec Ideal ⟨2, ![M, K]⟩ .f32) (wt : FVec Ideal ⟨2, ![K, N]⟩ .bf16) (x2 : FVec Ideal ⟨2, ![1, N]⟩ .f32)
    (hx : FTy.bf16.bits < FTy.f32.bits) (hc0 : (⟨2, ![M, K]⟩ : Shape).ShapeCasts ⟨2, ![M, K]⟩)
    (hc2 : (⟨2, ![1, N]⟩ : Shape).ShapeCasts ⟨2, ![1, N]⟩) (hb : (⟨2, ![1, N]⟩ : Shape).Broadcasts ⟨2, ![M, N]⟩) :
    maximumf (addf (matmul (Cert.LibMatmul.plainDims M K N wf) prec (truncf .bf16 (shapeCast ⟨2, ![M, K]⟩ x0 hc0) hx) wt
          (constant ⟨2, ![M, N]⟩ .f32 0x00000000#32))
        (broadcastTo ⟨2, ![M, N]⟩ (shapeCast ⟨2, ![1, N]⟩ x2 hc2) hb))
      (broadcast ⟨2, ![M, N]⟩ (Scalar.ofBits (F := Ideal) .f32 0x00000000#32)) = denseRow x0 wt x2 := by
  funext i
  obtain ⟨p, q, rfl⟩ : ∃ (p : Fin M) (q : Fin N), i = ix2 p q := ⟨i 0, i 1, eq_ix2 i⟩
  show max (matmul (Cert.LibMatmul.plainDims M K N wf) prec (truncf .bf16 (shapeCast ⟨2, ![M, K]⟩ x0 hc0) hx) wt
        (constant ⟨2, ![M, N]⟩ .f32 0x00000000#32) (ix2 p q)
      + broadcastTo ⟨2, ![M, N]⟩ (shapeCast ⟨2, ![1, N]⟩ x2 hc2) hb (ix2 p q)) _ = _
  rw [Cert.LibMatmul.matmul_plain_apply, broadcastTo_1b_ab_apply, shapeCast_self, shapeCast_self]
  rfl

/-- ROWS off … off + m − 1 OF THE LAYER: where x0 holds those rows of a, entry j of the layer of x0 is entry i of the
    layer of a, for i the same column and row off + (the row of j). -/
theorem denseRow_rows {M m K N : Nat} (a : FVec Ideal ⟨2, ![M, K]⟩ .f32) (wt : FVec Ideal ⟨2, ![K, N]⟩ .f32) (b : FVec Ideal ⟨2, ![1, N]⟩ .f32)
    (x0 : FVec Ideal ⟨2, ![m, K]⟩ .f32) (wt' : FVec Ideal ⟨2, ![K, N]⟩ .f32) (x2 : FVec Ideal ⟨2, ![1, N]⟩ .f32) (off : Nat)
    (hx0 : ∀ (p : Fin m) (k : Fin K) (P : Fin M), P.val = off + p.val → x0 (ix2 p k) = a (ix2 P k))
    (hwt : wt' = wt) (hx2 : x2 = b)
    (j : (⟨2, ![m, N]⟩ : Shape).Idx) (i : (⟨2, ![M, N]⟩ : Shape).Idx)
    (h0 : (i 0).val = off + (j 0).val) (h1 : (i 1).val = (j 1).val) :
    denseRow x0 wt' x2 j = denseRow a wt b i := by
  subst hwt hx2
  obtain ⟨p, q, rfl⟩ : ∃ (p : Fin m) (q : Fin N), j = ix2 p q := ⟨j 0, j 1, eq_ix2 j⟩
  obtain ⟨P, Q, rfl⟩ : ∃ (P : Fin M) (Q : Fin N), i = ix2 P Q := ⟨i 0, i 1, eq_ix2 i⟩
  have e1 : Q = q := Fin.ext h1
  subst e1
  show max (∑ k : Fin K, x0 (ix2 p k) * wt' (ix2 k Q) + x2 (ix2 (0 : Fin 1) Q)) _
    = max (∑ k : Fin K, a (ix2 P k) * wt' (ix2 k Q) + x2 (ix2 (0 : Fin 1) Q)) _
  rw [Finset.sum_congr rfl fun k _ => by rw [hx0 p k P h0]]

end Cert.LibDenseClamp

end
-- ==== Proof.KernelBlocks.lean ====
/-
  Each of the two calls of the dense-layer kernel, at whatever the arrays hold when the call is entered: the call's
  output array ends holding the layer — entry (p, q) is max (Σ_k x (p, k) · wᵀ (k, q) + b (0, q), 0) — of its three
  operand arrays. A grid point loads 5000 consecutive rows of x, the whole of w and of the bias row, and writes the same
  5000 rows of the output; a row of the layer depends on that row of x only, so the block a point writes is that block of
  the layer of the whole arrays, and the twenty blocks tile the output.
-/
import proofs.«161906_j33131377721642_1_alg».proof.Proof.Gen.KernelIdeal.Frame
import Idealize.ShloMosaic.Lib.Pipeline.Value
import proofs.«161906_j33131377721642_1_alg».proof.Proof.LibDenseClamp

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.LibDenseClamp (denseRow)

variable (V : (c : Dev nD) → (b : Ref sig .tc) → Buf (Elt Ideal) ((c : Thread nD τ).loc b))

theorem hz : (![0, 0] : Fin 2 → Nat) = fun _ => 0 := funext fun a => by fin_cases a <;> rfl

/-! ## The first layer's call -/

/-- What the body stores is the row form of the layer of its three loaded blocks: the rows it loaded, the weights it
    loaded (transposed by the body before the product), the bias row it loaded. -/
theorem pay0_eq (x0 : Vec Ideal S5000x32 .f32) (x1 : Vec Ideal S32x32 .f32) (x2 : Vec Ideal S1x32 .f32) :
    k0_pay1 x0 x1 x2
      = denseRow x0 (transpose S32x32 [1, 0] x1 transposes_S32x32_p1_0_S32x32) x2 :=
  Cert.LibDenseClamp.unit_denseRow (M := 5000) (K := 32) (N := 32) dot_S5000x32_S32x32_S5000x32_1_0_0_1_n_n_wf none x0
    (transpose S32x32 [1, 0] (truncf .bf16 x1 bitsLt_bf16_f32) transposes_S32x32_p1_0_S32x32) x2 _ _ _ _

/-- The index maps over the grid: the row blocks of the input and of the output move together, one block per point;
    the weights' and the bias row's block is the whole array at every point. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t holds the 5000 rows of the array from row (block index) · 5000 on. -/
theorem iblk0_0_apply (c : Dev nD) (t : Fin cfg0.N) (p : Fin 5000) (k : Fin 32) (P : Fin 100000)
    (hP : P.val = win0_3.index t (0 : Fin 2) * 5000 + p.val) :
    (iblk0 V c 0 t : Vec Ideal S5000x32 .f32) (ix2 p k) = (V c main_v12 : S100000x32.Idx → EReal) (ix2 P k) := by
  obtain ⟨e0, e1, -⟩ := idx0 t
  unfold iblk0
  rw [View.read_apply]
  show V c main_v12 _ = V c main_v12 _
  refine congrArg (V c main_v12) ?_
  funext a
  apply Fin.ext
  match a with
  | ⟨0, _⟩ => show win0_0.index t (0 : Fin 2) * 5000 + 1 * p.val = P.val; omega
  | ⟨1, _⟩ => show win0_0.index t (1 : Fin 2) * 32 + 1 * k.val = k.val; omega

/-- The weights' block at any point is the whole weight array. -/
theorem iblk0_1_eq (c : Dev nD) (t : Fin cfg0.N) : (iblk0 V c 1 t : Vec Ideal S32x32 .f32) = V c main_arg4 := by
  obtain ⟨-, -, e2, e3, -⟩ := idx0 t
  funext y
  unfold iblk0
  rw [View.read_apply]
  show V c main_arg4 _ = V c main_arg4 y
  refine congrArg (V c main_arg4) ?_
  funext a
  apply Fin.ext
  match a with
  | ⟨0, _⟩ => show win0_1.index t (0 : Fin 2) * 32 + 1 * (y 0).val = (y 0).val; omega
  | ⟨1, _⟩ => show win0_1.index t (1 : Fin 2) * 32 + 1 * (y 1).val = (y 1).val; omega

/-- The bias row's block at any point is the whole row. -/
theorem iblk0_2_eq (c : Dev nD) (t : Fin cfg0.N) : (iblk0 V c 2 t : Vec Ideal S1x32 .f32) = V c main_v13 := by
  obtain ⟨-, -, -, -, e4, e5, -⟩ := idx0 t
  funext y
  unfold iblk0
  rw [View.read_apply]
  show V c main_v13 _ = V c main_v13 y
  refine congrArg (V c main_v13) ?_
  funext a
  apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- WHAT POINT t WRITES BACK is block t of the layer of the whole arrays as the call finds them: row r of the block is
    row (block index) · 5000 + r of the layer, which depends on that one row of the input only. -/
theorem flushed0_eq (c : Dev nD) (t : Fin cfg0.N) :
    (dat0 V c).flushed 3 t = ((cfg0.win 3).blk t).view.read (Elt Ideal)
      (denseRow (V c main_v12) (transpose S32x32 [1, 0] (V c main_arg4 : FVec Ideal S32x32 .f32) transposes_S32x32_p1_0_S32x32) (V c main_v13)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x32) hz, View.ld_unit_zero (S := S1x32) hz]
  rw [pay0_eq]
  funext j
  rw [View.read_apply]
  obtain ⟨-, -, -, -, -, -, -, e7⟩ := idx0 t
  refine Cert.LibDenseClamp.denseRow_rows (M := 100000) (m := 5000) (K := 32) (N := 32) (V c main_v12) _ (V c main_v13)
    (iblk0 V c 0 t) _ (iblk0 V c 2 t) (win0_3.index t (0 : Fin 2) * 5000)
    (fun p k P hP => iblk0_0_apply V c t p k P hP) ?_ (iblk0_2_eq V c t) _ _ ?_ ?_
  · exact congrArg (fun x => transpose S32x32 [1, 0] x transposes_S32x32_p1_0_S32x32) (iblk0_1_eq V c t)
  · show win0_3.index t (0 : Fin 2) * 5000 + 1 * (j 0).val = win0_3.index t (0 : Fin 2) * 5000 + (j 0).val; omega
  · show win0_3.index t (1 : Fin 2) * 32 + 1 * (j 1).val = (j 1).val; omega

/-- An index of the output array is in point t's block iff each coordinate is in the block's range on its axis. -/
theorem mem_blk0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v14).slice (win0_3.rect t)).set ↔ _
  rw [View.set_slice_whole, Rect.mem_set_unit]
  exact Iff.rfl

/-- Row r of the output lies in the block of point r / 5000: the twenty blocks tile the array. -/
theorem cover0 (i : S100000x32.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 32 := (i 1).isLt
  have ht : (i 0).val / 5000 < cfg0.N := by omega
  refine ⟨⟨(i 0).val / 5000, ht⟩, flush0_3 _, ?_⟩
  rw [mem_blk0]
  obtain ⟨-, -, -, -, -, -, e6, e7⟩ := idx0 ⟨(i 0).val / 5000, ht⟩
  have e6' : win0_3.index ⟨(i 0).val / 5000, ht⟩ (0 : Fin 2) = (i 0).val / 5000 := e6
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 32 ≤ (i 1).val
      ∧ (i 1).val < win0_3.index ⟨(i 0).val / 5000, ht⟩ (1 : Fin 2) * 32 + 32
    omega

/-- THE OUTPUT ARRAY after the call is the layer of the arrays as the call finds them. -/
theorem final0 (c : Dev nD) : (dat0 V c).arrAt 3 cfg0.N
    = denseRow (V c main_v12) (transpose S32x32 [1, 0] (V c main_arg4 : FVec Ideal S32x32 .f32) transposes_S32x32_p1_0_S32x32) (V c main_v13) :=
  (dat0 V c).arrAt_eq_of_cover 3 _ (fun t _ => flushed0_eq V c t) cover0

/-! ## The second layer's call -/

/-- What the body stores is the row form of the layer of its three loaded blocks: the rows it loaded, the weights it
    loaded (transposed by the body before the product), the bias row it loaded. -/
theorem pay1_eq (x0 : Vec Ideal S5000x32 .f32) (x1 : Vec Ideal S32x32 .f32) (x2 : Vec Ideal S1x32 .f32) :
    k1_pay1 x0 x1 x2
      = denseRow x0 (transpose S32x32 [1, 0] x1 transposes_S32x32_p1_0_S32x32) x2 :=
  Cert.LibDenseClamp.unit_denseRow (M := 5000) (K := 32) (N := 32) dot_S5000x32_S32x32_S5000x32_1_0_0_1_n_n_wf none x0
    (transpose S32x32 [1, 0] (truncf .bf16 x1 bitsLt_bf16_f32) transposes_S32x32_p1_0_S32x32) x2 _ _ _ _

/-- The index maps over the grid: the row blocks of the input and of the output move together, one block per point;
    the weights' and the bias row's block is the whole array at every point. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t holds the 5000 rows of the array from row (block index) · 5000 on. -/
theorem iblk1_0_apply (c : Dev nD) (t : Fin cfg1.N) (p : Fin 5000) (k : Fin 32) (P : Fin 100000)
    (hP : P.val = win1_3.index t (0 : Fin 2) * 5000 + p.val) :
    (iblk1 V c 0 t : Vec Ideal S5000x32 .f32) (ix2 p k) = (V c main_v27 : S100000x32.Idx → EReal) (ix2 P k) := by
  obtain ⟨e0, e1, -⟩ := idx1 t
  unfold iblk1
  rw [View.read_apply]
  show V c main_v27 _ = V c main_v27 _
  refine congrArg (V c main_v27) ?_
  funext a
  apply Fin.ext
  match a with
  | ⟨0, _⟩ => show win1_0.index t (0 : Fin 2) * 5000 + 1 * p.val = P.val; omega
  | ⟨1, _⟩ => show win1_0.index t (1 : Fin 2) * 32 + 1 * k.val = k.val; omega

/-- The weights' block at any point is the whole weight array. -/
theorem iblk1_1_eq (c : Dev nD) (t : Fin cfg1.N) : (iblk1 V c 1 t : Vec Ideal S32x32 .f32) = V c main_arg6 := by
  obtain ⟨-, -, e2, e3, -⟩ := idx1 t
  funext y
  unfold iblk1
  rw [View.read_apply]
  show V c main_arg6 _ = V c main_arg6 y
  refine congrArg (V c main_arg6) ?_
  funext a
  apply Fin.ext
  match a with
  | ⟨0, _⟩ => show win1_1.index t (0 : Fin 2) * 32 + 1 * (y 0).val = (y 0).val; omega
  | ⟨1, _⟩ => show win1_1.index t (1 : Fin 2) * 32 + 1 * (y 1).val = (y 1).val; omega

/-- The bias row's block at any point is the whole row. -/
theorem iblk1_2_eq (c : Dev nD) (t : Fin cfg1.N) : (iblk1 V c 2 t : Vec Ideal S1x32 .f32) = V c main_v28 := by
  obtain ⟨-, -, -, -, e4, e5, -⟩ := idx1 t
  funext y
  unfold iblk1
  rw [View.read_apply]
  show V c main_v28 _ = V c main_v28 y
  refine congrArg (V c main_v28) ?_
  funext a
  apply Fin.ext
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- WHAT POINT t WRITES BACK is block t of the layer of the whole arrays as the call finds them: row r of the block is
    row (block index) · 5000 + r of the layer, which depends on that one row of the input only. -/
theorem flushed1_eq (c : Dev nD) (t : Fin cfg1.N) :
    (dat1 V c).flushed 3 t = ((cfg1.win 3).blk t).view.read (Elt Ideal)
      (denseRow (V c main_v27) (transpose S32x32 [1, 0] (V c main_arg6 : FVec Ideal S32x32 .f32) transposes_S32x32_p1_0_S32x32) (V c main_v28)) := by
  show (cfg1.win 3).cut (grid1.coords t) ((dat1 V c).after 3 t) = _
  rw [after1_3]
  unfold out1_3
  rw [View.canon_unit_zero hz]
  simp only [View.ld_unit_zero (S := S5000x32) hz, View.ld_unit_zero (S := S32x32) hz, View.ld_unit_zero (S := S1x32) hz]
  rw [pay1_eq]
  funext j
  rw [View.read_apply]
  obtain ⟨-, -, -, -, -, -, -, e7⟩ := idx1 t
  refine Cert.LibDenseClamp.denseRow_rows (M := 100000) (m := 5000) (K := 32) (N := 32) (V c main_v27) _ (V c main_v28)
    (iblk1 V c 0 t) _ (iblk1 V c 2 t) (win1_3.index t (0 : Fin 2) * 5000)
    (fun p k P hP => iblk1_0_apply V c t p k P hP) ?_ (iblk1_2_eq V c t) _ _ ?_ ?_
  · exact congrArg (fun x => transpose S32x32 [1, 0] x transposes_S32x32_p1_0_S32x32) (iblk1_1_eq V c t)
  · show win1_3.index t (0 : Fin 2) * 5000 + 1 * (j 0).val = win1_3.index t (0 : Fin 2) * 5000 + (j 0).val; omega
  · show win1_3.index t (1 : Fin 2) * 32 + 1 * (j 1).val = (j 1).val; omega

/-- An index of the output array is in point t's block iff each coordinate is in the block's range on its axis. -/
theorem mem_blk1 (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v29).slice (win1_3.rect t)).set ↔ _
  rw [View.set_slice_whole, Rect.mem_set_unit]
  exact Iff.rfl

/-- Row r of the output lies in the block of point r / 5000: the twenty blocks tile the array. -/
theorem cover1 (i : S100000x32.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 32 := (i 1).isLt
  have ht : (i 0).val / 5000 < cfg1.N := by omega
  refine ⟨⟨(i 0).val / 5000, ht⟩, flush1_3 _, ?_⟩
  rw [mem_blk1]
  obtain ⟨-, -, -, -, -, -, e6, e7⟩ := idx1 ⟨(i 0).val / 5000, ht⟩
  have e6' : win1_3.index ⟨(i 0).val / 5000, ht⟩ (0 : Fin 2) = (i 0).val / 5000 := e6
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 32 ≤ (i 1).val
      ∧ (i 1).val < win1_3.index ⟨(i 0).val / 5000, ht⟩ (1 : Fin 2) * 32 + 32
    omega

/-- THE OUTPUT ARRAY after the call is the layer of the arrays as the call finds them. -/
theorem final1 (c : Dev nD) : (dat1 V c).arrAt 3 cfg1.N
    = denseRow (V c main_v27) (transpose S32x32 [1, 0] (V c main_arg6 : FVec Ideal S32x32 .f32) transposes_S32x32_p1_0_S32x32) (V c main_v28) :=
  (dat1 V c).arrAt_eq_of_cover 3 _ (fun t _ => flushed1_eq V c t) cover1

end Cert.KernelIdeal.Blocks

end
-- ==== Proof.KernelRun.lean ====
/-
  The whole program of the two-layer network as one run: the host's neighbourhood sums before each call, the two calls of
  the dense-layer kernel. Every weakly fair execution terminates, and the result array ends at what the fold of the
  buffer contents through the program's four segments (host operations, first call, host operations, second call)
  assigns to it; every argument array ends as launched.
-/
import proofs.«161906_j33131377721642_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, with the result array read off the last segment's boundary as well as the
    arguments: the final state holds every unscoped buffer at the last boundary's contents, the result's among them. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.WholeRun

end
-- ==== Proof.KernelValue.lean ====
/-
  What the two-layer network's program leaves in its result array, as one function of the eight argument arrays:
  net = layer (S (layer (S emb) w0ᵀ b0)) w1ᵀ b1, where S x is the host's neighbourhood sum of x (gather the rows of x
  named by the edges' columns, weigh them by the edges' values, add them into the rows named by the edges' rows) and
  layer x wᵀ b has entry (p, q) = max (Σ_k x (p, k) · wᵀ (k, q) + b q, 0). The neighbourhood sum is kept as the host
  spells it and never opened. Each call's operand arrays are read off the host operations before it; the first call's
  output array is what the second neighbourhood sum gathers from.
-/
import proofs.«161906_j33131377721642_1_alg».proof.Proof.Gen.KernelIdeal.Frame
import proofs.«161906_j33131377721642_1_alg».proof.Proof.KernelBlocks
import proofs.«161906_j33131377721642_1_alg».proof.Proof.KernelRun
import proofs.«161906_j33131377721642_1_alg».proof.Proof.LibDenseClamp
import Idealize.ShloMosaic.Lib.StableHlo.Run
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo
open Cert.LibDenseClamp (dense denseRow)

/-- The neighbourhood sum of x over the edge list (rows, cols, vals), as the host spells it: the columns' indices
    normalised (a negative one counted from the end), the rows of x gathered at them, each scaled by its edge's value,
    and scattered by addition, from zero, into the rows named by the edges' row indices. -/
def spmm (rows cols : (⟨S2000000, .i32⟩ : BufTy).Contents (Elt Ideal)) (vals : (⟨S2000000, .f32⟩ : BufTy).Contents (Elt Ideal))
    (x : (⟨S100000x32, .f32⟩ : BufTy).Contents (Elt Ideal)) : (⟨S100000x32, .f32⟩ : BufTy).Contents (Elt Ideal) :=
  Host.scatterAdd (F := Ideal) scatter_S100000x32_S2000000x1_S2000000x32_1_0_0_1
    (broadcastInDim S100000x32 ![] bcast_S_S100000x32 (constant (F := Ideal) S_ .f32 0x00000000#32))
    (broadcastInDim S2000000x1 ![0] bcast_S2000000_S2000000x1_0 rows)
    (mulf
      (broadcastInDim S2000000x32 ![0, 1] bcast_S2000000x1_S2000000x32_0_1
        (broadcastInDim S2000000x1 ![0] bcast_S2000000_S2000000x1_0 vals))
      (Host.gather gather_S100000x32_S2000000x1_S2000000x32_1_0_n_n_0_1_132 x
        (broadcastInDim S2000000x1 ![0] bcast_S2000000_S2000000x1_0
          (select
            (cmpi CmpIPredicate.slt cols (broadcastInDim S2000000 ![] bcast_S_S2000000 (constantI S_ 32 0#32)))
            (addi cols (broadcastInDim S2000000 ![] bcast_S_S2000000 (constantI S_ 32 100000#32)))
            cols))))

/-- The network: two rounds of neighbourhood sum and dense layer. -/
def net (rows cols : (⟨S2000000, .i32⟩ : BufTy).Contents (Elt Ideal)) (vals : (⟨S2000000, .f32⟩ : BufTy).Contents (Elt Ideal))
    (emb : (⟨S100000x32, .f32⟩ : BufTy).Contents (Elt Ideal))
    (w0 : (⟨S32x32, .f32⟩ : BufTy).Contents (Elt Ideal)) (b0 : (⟨S32, .f32⟩ : BufTy).Contents (Elt Ideal))
    (w1 : (⟨S32x32, .f32⟩ : BufTy).Contents (Elt Ideal)) (b1 : (⟨S32, .f32⟩ : BufTy).Contents (Elt Ideal)) :
    (⟨S100000x32, .f32⟩ : BufTy).Contents (Elt Ideal) :=
  dense (M := 100000) (K := 32) (N := 32)
    (spmm rows cols vals
      (dense (M := 100000) (K := 32) (N := 32) (spmm rows cols vals emb) (transpose S32x32 [1, 0] w0 transposes_S32x32_p1_0_S32x32) b0))
    (transpose S32x32 [1, 0] w1 transposes_S32x32_p1_0_S32x32) b1

variable (m : (ℓ : Loc nD τ sig) → Buf (Elt Ideal) ℓ) (ρ : Dev nD → PrngReg)

/-! ## The first call's operands, as the host operations before it leave them -/

theorem entry0_x (c : Dev nD) : V1 m ρ c main_v12
    = spmm (m ((c.tc : Thread nD τ).loc main_arg0)) (m ((c.tc : Thread nD τ).loc main_arg1)) (m ((c.tc : Thread nD τ).loc main_arg2))
        (m ((c.tc : Thread nD τ).loc main_arg3)) := by
  show StableHlo.after hostOps0 (W0 m ρ c) (Proc.devRef .tc main_v12) = _
  after_results
  rfl

theorem entry0_w (c : Dev nD) : V1 m ρ c main_arg4 = m ((c.tc : Thread nD τ).loc main_arg4) := by
  show StableHlo.after hostOps0 (W0 m ρ c) (Proc.devRef .tc main_arg4) = _
  after_results

theorem entry0_b (c : Dev nD) : V1 m ρ c main_v13 = shapeCast S1x32 (m ((c.tc : Thread nD τ).loc main_arg5)) shapeCasts_S32_S1x32 := by
  show StableHlo.after hostOps0 (W0 m ρ c) (Proc.devRef .tc main_v13) = _
  after_results
  rfl

/-- The first call's output array: the first layer of the neighbourhood sum of the embeddings. -/
theorem first_layer (c : Dev nD) : W2 m ρ c (Proc.devRef .tc main_v14)
    = dense (M := 100000) (K := 32) (N := 32)
        (spmm (m ((c.tc : Thread nD τ).loc main_arg0)) (m ((c.tc : Thread nD τ).loc main_arg1)) (m ((c.tc : Thread nD τ).loc main_arg2))
          (m ((c.tc : Thread nD τ).loc main_arg3)))
        (transpose S32x32 [1, 0] (m ((c.tc : Thread nD τ).loc main_arg4)) transposes_S32x32_p1_0_S32x32)
        (m ((c.tc : Thread nD τ).loc main_arg5)) := by
  refine (W2_arr m ρ c 3).trans ?_
  rw [Cert.KernelIdeal.Blocks.final0 (V1 m ρ) c, entry0_x, entry0_w, entry0_b]
  exact Cert.LibDenseClamp.denseRow_cast _ _ _ _

/-! ## An argument array is still as launched when the second stretch of host operations reads it -/

theorem W2_arg0 (c : Dev nD) : W2 m ρ c (Proc.devRef .tc main_arg0) = m ((c.tc : Thread nD τ).loc main_arg0) :=
  (W2_of_ne m ρ c main_arg0 (by decide)).trans (by
    show StableHlo.after hostOps0 (W0 m ρ c) (Proc.devRef .tc main_arg0) = _
    after_results)
theorem W2_arg1 (c : Dev nD) : W2 m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
theorem W2_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)

/-! ## The second call's operands -/

/-- The second neighbourhood sum reads the edge list and the first call's output at the first call's exit. -/
theorem entry1_x_at_exit (c : Dev nD) : V3 m ρ c main_v27
    = spmm (W2 m ρ c (Proc.devRef .tc main_arg0)) (W2 m ρ c (Proc.devRef .tc main_arg1)) (W2 m ρ c (Proc.devRef .tc main_arg2))
        (W2 m ρ c (Proc.devRef .tc main_v14)) := by
  show StableHlo.after hostOps1 (W2 m ρ c) (Proc.devRef .tc main_v27) = _
  after_results
  rfl

theorem entry1_x (c : Dev nD) : V3 m ρ c main_v27
    = spmm (m ((c.tc : Thread nD τ).loc main_arg0)) (m ((c.tc : Thread nD τ).loc main_arg1)) (m ((c.tc : Thread nD τ).loc main_arg2))
        (W2 m ρ c (Proc.devRef .tc main_v14)) := by
  rw [entry1_x_at_exit, W2_arg0, W2_arg1, W2_arg2]

theorem entry1_w (c : Dev nD) : V3 m ρ c main_arg6 = m ((c.tc : Thread nD τ).loc main_arg6) := by
  show StableHlo.after hostOps1 (W2 m ρ c) (Proc.devRef .tc main_arg6) = _
  after_results
  exact W2_arg6 m ρ c

theorem entry1_b_at_exit (c : Dev nD) : V3 m ρ c main_v28 = shapeCast S1x32 (W2 m ρ c (Proc.devRef .tc main_arg7)) shapeCasts_S32_S1x32 := by
  show StableHlo.after hostOps1 (W2 m ρ c) (Proc.devRef .tc main_v28) = _
  after_results
  rfl

theorem entry1_b (c : Dev nD) : V3 m ρ c main_v28 = shapeCast S1x32 (m ((c.tc : Thread nD τ).loc main_arg7)) shapeCasts_S32_S1x32 := by
  rw [entry1_b_at_exit, W2_arg7]

/-- THE RESULT ARRAY at the last boundary is the network of the arguments as launched. -/
theorem result (c : Dev nD) : W4 m ρ c (Proc.devRef .tc main_v29)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_arr m ρ c 3).trans ?_
  rw [Cert.KernelIdeal.Blocks.final1 (V3 m ρ) c, entry1_x, entry1_w, entry1_b, first_layer]
  exact Cert.LibDenseClamp.denseRow_cast _ _ _ _

/-- The run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v29)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.WholeRun.run (F := Ideal) m ρ)

end Cert.KernelIdeal.Net

end
-- ==== Proof.RefValue.lean ====
/-
  The reference's dense layer, as the host spells it — a dot_general of x with the transposed weights, the bias
  broadcast to a row and along the rows and added, the maximum with a broadcast zero — is the layer whose entry (p, q) is
  max (Σ_k x (p, k) · wᵀ (k, q) + b q, 0).
-/
import proofs.«161906_j33131377721642_1_alg».proof.Proof.Gen.ReferenceIdeal.Run
import proofs.«161906_j33131377721642_1_alg».proof.Proof.LibDenseClamp
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Cert.LibDenseClamp (dense)

theorem layer_eq (x : FVec Ideal S100000x32 .f32) (w : FVec Ideal S32x32 .f32) (b : FVec Ideal S32 .f32) :
    maximumf
        (addf
          (Host.dotGeneral (F := Ideal) dot_S100000x32_S32x32_S100000x32_1_0_0_1_n_n none x
            (transpose S32x32 [1, 0] w transposes_S32x32_S32x32_1_0))
          (broadcastInDim S100000x32 ![0, 1] bcast_S1x32_S100000x32_0_1 (broadcastInDim S1x32 ![1] bcast_S32_S1x32_1 b)))
        (broadcastInDim S100000x32 ![] bcast_S_S100000x32 (constant (F := Ideal) S_ .f32 0x00000000#32))
      = dense (M := 100000) (K := 32) (N := 32) x (transpose S32x32 [1, 0] w transposes_S32x32_S32x32_1_0) b :=
  Cert.LibDenseClamp.host_dense (M := 100000) (K := 32) (N := 32) dot_S100000x32_S32x32_S100000x32_1_0_0_1_n_n_wf none x
    (transpose S32x32 [1, 0] w transposes_S32x32_S32x32_1_0) b _ _ _

end Cert.ReferenceIdeal.RefValue

end
-- ==== Proof.lean ====
/-
  The two-layer graph network x ↦ relu (S x · wᵀ + b), twice, where S is the neighbourhood sum over a fixed edge list: the
  kernel program computes S on the host and the dense layer relu (· wᵀ + b) in a kernel, 5000 rows per grid point; the
  reference computes everything on the host. Over the extended reals both are the same function of the arguments: S is
  spelt identically in both programs and is never opened; the kernel's layer (a matrix product into a zero accumulator,
  a bias row broadcast along the rows, a maximum with zero) and the host's (a dot_general, the bias broadcast twice, a
  maximum with a zero constant) are both entry (p, q) ↦ max (Σ_k x (p, k) · wᵀ (k, q) + b q, 0), the sums over k in the
  same order, so no law of the extended reals beyond that is used and the precondition is never opened. A row of the
  layer depends on that row of x only, so the twenty row blocks the grid writes are the blocks of the layer of the whole
  array.
-/
import proofs.«161906_j33131377721642_1_alg».proof.Defs
import proofs.«161906_j33131377721642_1_alg».proof.Proof.Gen.Kernel
import proofs.«161906_j33131377721642_1_alg».proof.Proof.Gen.Kernel.Frame
import proofs.«161906_j33131377721642_1_alg».proof.Proof.Gen.KernelIdeal
import proofs.«161906_j33131377721642_1_alg».proof.Proof.Gen.KernelIdeal.Frame
import proofs.«161906_j33131377721642_1_alg».proof.Proof.Gen.ReferenceIdeal
import proofs.«161906_j33131377721642_1_alg».proof.Proof.Gen.Pre_finite_inputs
import proofs.«161906_j33131377721642_1_alg».proof.Proof.Gen.ReferenceIdeal.Run
import proofs.«161906_j33131377721642_1_alg».proof.Proof.KernelValue
import proofs.«161906_j33131377721642_1_alg».proof.Proof.RefValue

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result arrays: the kernel program by its run read
    through its two calls, the reference by its run's term with each of its two layers rewritten to the layer; the
    neighbourhood sums are the same host operations on both sides. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7, Cert.ReferenceIdeal.RefValue.layer_eq, Cert.ReferenceIdeal.RefValue.layer_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
